-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x512 : Shape := ⟨2, ![4096, 512]⟩
abbrev S512 : Shape := ⟨1, ![512]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16384x4096 .f32) (main_arg1 : FVec F S4096x512 .f32) (main_arg2 : FVec F S512 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16384x4096 : Shape := ⟨2, ![16384, 4096]⟩
abbrev S4096x512 : Shape := ⟨2, ![4096, 512]⟩
abbrev S512 : Shape := ⟨1, ![512]⟩
abbrev S_ : Shape := ⟨0, ![]⟩
abbrev S1x512 : Shape := ⟨2, ![1, 512]⟩
abbrev S16384x512 : Shape := ⟨2, ![16384, 512]⟩
abbrev S512x4096 : Shape := ⟨2, ![512, 4096]⟩
abbrev S512x512 : Shape := ⟨2, ![512, 512]⟩

abbrev nBuf : Space → Nat
  | .hbm => 14
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S_, .f32⟩
  | .hbm, ⟨4, _⟩ => ⟨S4096x512, .f32⟩
  | .hbm, ⟨5, _⟩ => ⟨S4096x512, .i1⟩
  | .hbm, ⟨6, _⟩ => ⟨S_, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S1x512, .f32⟩
  | .hbm, ⟨13, _⟩ => ⟨S16384x512, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x512 : S_.BroadcastsInDim S4096x512 (![] : Fin 0 → Fin S4096x512.rank)
  bitsLt_bf16_f32 : FTy.bits .bf16 < FTy.bits .f32
  shapeCasts_S512_S1x512 : S512.ShapeCasts S1x512
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x512 : Shape := ⟨2, ![4096, 512]⟩
abbrev S512 : Shape := ⟨1, ![512]⟩
abbrev S_ : Shape := ⟨0, ![]⟩
abbrev S16384x512 : Shape := ⟨2, ![16384, 512]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .i1⟩
  | .hbm, ⟨14, _⟩ => ⟨S_, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .i1⟩
  | .hbm, ⟨33, _⟩ => ⟨S_, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S16384x512, .f32⟩
  | .hbm, ⟨42, _⟩ => ⟨S1x512, .f32⟩
  | .hbm, ⟨43, _⟩ => ⟨S16384x512, .f32⟩
  | .hbm, ⟨44, _⟩ => ⟨S16384x512, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_4 : Ref sig .tc := ⟨.hbm, 22, rfl⟩
abbrev main_cst_5 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v7 : Ref sig .tc := ⟨.hbm, 29, rfl⟩
abbrev main_cst_6 : Ref sig .tc := ⟨.hbm, 30, rfl⟩
abbrev main_v8 : Ref sig .tc := ⟨.hbm, 31, rfl⟩
abbrev main_v9 : Ref sig .tc := ⟨.hbm, 32, rfl⟩
abbrev main_cst_7 : Ref sig .tc := ⟨.hbm, 33, rfl⟩
abbrev main_cst_8 : Ref sig .tc := ⟨.hbm, 34, rfl⟩
abbrev main_call3_v0 : Ref sig .tc := ⟨.hbm, 35, rfl⟩
abbrev main_call3_v1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S_S4096x512 : S_.BroadcastsInDim S4096x512 (![] : Fin 0 → Fin S4096x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x4096_S4096x512_S16384x512_1_0_0_1_n_n_wf : DotDims.WF S16384x4096 S4096x512 S16384x512 [1] [0] [0] [1] [] []

variable [Facts₀]

def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.SignSpec.lean ====
/-
  A dense layer on signs: the specification, and the one law that joins the two programs.

  Both programs replace every entry of the input `x` (16384 × 4096) and of the weight `W` (4096 × 512) by its
  sign, `s(v) = +1` when `v ≥ 0` and `−1` otherwise, multiply the two sign matrices and add the bias row:

      out (i, j) = ∑ k < 4096, s (x (i, k)) · s (W (k, j)) + b j.

  One program writes the sign directly. The other writes it as `c + (s(v) − c)` with `c = min 1 (max (−1) v)`, the
  entry clipped to [−1, 1] (the form whose derivative is the clipped identity). On the extended reals
  `c + (s − c) = s` needs `c` to be a real number — at an infinite `c` the difference and the sum do not cancel — and
  the clip always is one: it lies between −1 and 1 whatever `v` is, infinite or not. So the law holds for every
  extended real `v`, and no finiteness of the inputs is used.
-/
import Idealize.ShloMosaic.PureOps.Ideal.Laws
import Idealize.ShloMosaic.Lib.ValueIdx

noncomputable section

open scoped BigOperators

namespace Cert.SignDense

open Idealize.ShloMosaic Idealize.ShloMosaic.ValueIdx

/-- The sign both programs compute, in their own words: compare with the word of `0.0`, select the word of `1.0` or
    of `−1.0`. -/
def sgn (v : EReal) : EReal :=
  Scalar.select (Ideal.cmp .oge v (Ideal.ofBits .f32 0x00000000#32))
    (Ideal.ofBits .f32 0x3F800000#32) (Ideal.ofBits .f32 0xBF800000#32)

/-- The word `0x3F800000` is the real number 1. -/
theorem ofBits_one : Ideal.ofBits .f32 0x3F800000#32 = ((1 : ℝ) : EReal) := by
  simp [Ideal.ofBits, Ideal.ieee, -EReal.coe_mul]; norm_num

/-- The word `0xBF800000` is the real number −1. -/
theorem ofBits_neg_one : Ideal.ofBits .f32 0xBF800000#32 = ((-1 : ℝ) : EReal) := by
  simp [Ideal.ofBits, Ideal.ieee, -EReal.coe_mul]; norm_num

/-- A real number added to a difference from it gives the minuend back, whatever extended real the minuend is:
    at `s = ±∞` both sides are that infinity, because `c` is finite. -/
theorem real_add_sub_cancel (c : ℝ) (s : EReal) : (c : EReal) + (s - c) = s := by
  induction s using EReal.rec with
  | bot => simp
  | coe r => rw [← EReal.coe_sub, ← EReal.coe_add]; congr 1; ring
  | top => simp

/-- The clip of any extended real to [−1, 1] is a real number: it is at most 1 and at least −1. -/
theorem clip_is_real (v : EReal) :
    ∃ c : ℝ, min (Ideal.ofBits .f32 0x3F800000#32) (max (Ideal.ofBits .f32 0xBF800000#32) v) = (c : EReal) := by
  rw [ofBits_one, ofBits_neg_one]
  have hle : ((-1 : ℝ) : EReal) ≤ ((1 : ℝ) : EReal) := by exact_mod_cast (by norm_num : (-1 : ℝ) ≤ 1)
  have htop : min ((1 : ℝ) : EReal) (max ((-1 : ℝ) : EReal) v) ≠ ⊤ :=
    ne_top_of_le_ne_top (EReal.coe_ne_top 1) (min_le_left _ _)
  have hbot : min ((1 : ℝ) : EReal) (max ((-1 : ℝ) : EReal) v) ≠ ⊥ :=
    ne_bot_of_le_ne_bot (EReal.coe_ne_bot (-1)) (le_min hle (le_max_left _ _))
  exact ⟨_, (EReal.coe_toReal htop hbot).symm⟩

/-- THE LAW: the clipped entry plus (sign minus clipped entry) is the sign, for every extended real. -/
theorem clip_add_sign_sub_clip (v : EReal) :
    min (Ideal.ofBits .f32 0x3F800000#32) (max (Ideal.ofBits .f32 0xBF800000#32) v)
      + (sgn v - min (Ideal.ofBits .f32 0x3F800000#32) (max (Ideal.ofBits .f32 0xBF800000#32) v)) = sgn v := by
  obtain ⟨c, hc⟩ := clip_is_real v
  rw [hc]
  exact real_add_sub_cancel c (sgn v)

/-- THE SPECIFICATION: entry `(i, j)` of the result is the sum over `k` of the sign of `x (i, k)` times the sign of
    `W (k, j)`, plus `b j`. -/
def G (x : (⟨2, ![16384, 4096]⟩ : Shape).Idx → EReal) (w : (⟨2, ![4096, 512]⟩ : Shape).Idx → EReal)
    (b : (⟨1, ![512]⟩ : Shape).Idx → EReal) : (⟨2, ![16384, 512]⟩ : Shape).Idx → EReal :=
  fun i => (∑ k : Fin 4096, sgn (x (ix2 (i 0) k)) * sgn (w (ix2 k (i 1)))) + b (ix1 (i 1))

end Cert.SignDense

end
-- ==== Proof.RefSide.lean ====
/-
  The reference computes the specification.

  Read one operation at a time, the reference builds, for `x` and for `W` alike, the clipped entry
  `c = min 1 (max (−1) v)`, the sign `s(v)`, and then `c + (s(v) − c)`; by the law of the specification that is the
  sign itself. Its `dot_general` contracts the columns of the first against the rows of the second, so entry
  `(i, j)` is the sum over `k` of the two signs' product, and the bias vector, spread first to one row and then to
  every row, adds `b j`.
-/
import proofs.«109413_j44117904065171_2_alg».proof.Proof.Gen.ReferenceIdeal.Read
import proofs.«109413_j44117904065171_2_alg».proof.Proof.SignSpec

noncomputable section

open scoped BigOperators

namespace Cert.SignDense.Ref

open Cert.ReferenceIdeal Cert.ReferenceIdeal.Read Cert.SignDense
open Idealize.ShloMosaic Idealize.ShloMosaic.ValueIdx

/-- The reference's binarized input, entry by entry, is the sign: the clip plus (sign minus clip). -/
theorem sign_x (x0 : (⟨S16384x4096, .f32⟩ : BufTy).Contents (Elt Ideal)) (j : S16384x4096.Idx) :
    val_main_v6 (F := Ideal) x0 j = sgn (x0 j) := by
  rw [val_main_v6_apply, val_main_v5_apply, val_main_v4_apply, val_main_v3_apply, val_main_v2_apply, val_main_v0_apply,
    val_main_call0_v2_apply, val_main_call0_v4_apply, val_main_call0_v3_apply, val_main_cst_0_apply,
    val_main_call0_v1_apply, val_main_call0_v0_apply, val_main_cst_apply, val_main_v1_apply, val_main_cst_1_apply,
    val_main_call1_v0_apply, val_main_cst_2_apply, val_main_call1_v1_apply, val_main_cst_3_apply]
  exact clip_add_sign_sub_clip (x0 j)

/-- The reference's binarized weight, entry by entry, is the sign, in the same way. -/
theorem sign_w (x1 : (⟨S4096x512, .f32⟩ : BufTy).Contents (Elt Ideal)) (j : S4096x512.Idx) :
    val_main_v13 (F := Ideal) x1 j = sgn (x1 j) := by
  rw [val_main_v13_apply, val_main_v12_apply, val_main_v11_apply, val_main_v10_apply, val_main_v9_apply, val_main_v7_apply,
    val_main_call2_v2_apply, val_main_call2_v4_apply, val_main_call2_v3_apply, val_main_cst_5_apply,
    val_main_call2_v1_apply, val_main_call2_v0_apply, val_main_cst_4_apply, val_main_v8_apply, val_main_cst_6_apply,
    val_main_call3_v0_apply, val_main_cst_7_apply, val_main_call3_v1_apply, val_main_cst_8_apply]
  exact clip_add_sign_sub_clip (x1 j)

/-- The left operand's index at contraction step `k` is `(i 0, k)` … -/
theorem lidx_eq (i : S16384x512.Idx) (k : Fin 4096) : lidx_main_v14 i k = ix2 (i 0) k :=
  funext fun a => by
    match a with
    | ⟨0, _⟩ => rfl
    | ⟨1, _⟩ => rfl

/-- … and the right operand's is `(k, i 1)`. -/
theorem ridx_eq (i : S16384x512.Idx) (k : Fin 4096) : ridx_main_v14 i k = ix2 k (i 1) :=
  funext fun a => by
    match a with
    | ⟨0, _⟩ => rfl
    | ⟨1, _⟩ => rfl

/-- The reference's result is the specification of its three arguments. -/
theorem result_eq (x0 : (⟨S16384x4096, .f32⟩ : BufTy).Contents (Elt Ideal)) (x1 : (⟨S4096x512, .f32⟩ : BufTy).Contents (Elt Ideal))
    (x2 : (⟨S512, .f32⟩ : BufTy).Contents (Elt Ideal)) :
    val_main_v17 (F := Ideal) x0 x1 x2 = G x0 x1 x2 := by
  funext i
  rw [val_main_v17_apply, val_main_v14_apply, val_main_v16_apply, val_main_v15_apply]
  show (∑ k : Fin 4096, _) + _ = (∑ k : Fin 4096, _) + _
  congr 1
  · refine Finset.sum_congr rfl fun k _ => ?_
    rw [sign_x, sign_w, lidx_eq, ridx_eq]
    rfl
  · refine congrArg x2 (funext fun a => ?_)
    match a with
    | ⟨0, _⟩ => rfl

end Cert.SignDense.Ref

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.KernelBody.lean ====
/-
  One grid point's arithmetic, entry by entry.

  At a grid point the kernel holds a block of 512 rows of `x`, the whole binarized weight and the bias as one row.
  It takes the sign of every entry of the row block, multiplies the 512 × 4096 sign block by the 4096 × 512 weight
  into a zero accumulator, and adds the bias row to every row of the product. Entry `(p, q)` of what it stores is
  therefore the sum over `k` of the sign of the row block at `(p, k)` times the weight at `(k, q)`, plus the bias at
  `q`. (The narrowing of the signs to a shorter float format changes nothing on the extended reals.)
-/
import proofs.«109413_j44117904065171_2_alg».proof.Proof.Gen.KernelIdeal.Skeleton
import proofs.«109413_j44117904065171_2_alg».proof.Proof.SignSpec
import proofs.«109413_j44117904065171_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.SignDense.Body

open Cert.KernelIdeal Cert.KernelIdeal.Gen Cert.SignDense
open Idealize.ShloMosaic Idealize.ShloMosaic.ValueIdx

/-- The kernel's product contracts the columns of the left block against the rows of the right one, with no batch
    axis: a plain matrix product. -/
theorem plain : Cert.PlainDot.IsPlain dot_S512x4096_S4096x512_S512x512_1_0_0_1_n_n :=
  ⟨rfl, rfl, rfl, rfl, rfl, rfl⟩

/-- The bias row spread over 512 rows, read at `(p, q)`, is the row's entry `q`. -/
theorem bias_row_apply (x2 : Vec Ideal S1x512 .f32) (p q : Fin 512) :
    broadcastTo S512x512 (shapeCast S1x512 (shapeCast S1x512 x2 shapeCasts_S1x512_S1x512) shapeCasts_S1x512_S1x512)
      broadcasts_S1x512_S512x512 (ix2 p q) = x2 (ix2 (0 : Fin 1) q) := by
  rw [shapeCast_self, shapeCast_self]
  exact broadcastTo_apply x2 broadcasts_S1x512_S512x512 (ix2 p q) (ix2 (0 : Fin 1) q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- What the kernel stores, at entry `(p, q)` of its 512 × 512 block, from the three blocks it loaded. -/
theorem pay_apply (x0 : Vec Ideal S512x4096 .f32) (x1 : Vec Ideal S4096x512 .bf16) (x2 : Vec Ideal S1x512 .f32)
    (p q : Fin 512) :
    k0_pay1 (F := Ideal) x0 x1 x2 (ix2 p q)
      = (∑ k : Fin 4096, sgn (x0 (ix2 p k)) * x1 (ix2 k q)) + x2 (ix2 (0 : Fin 1) q) := by
  unfold k0_pay1
  refine congrArg₂ (· + ·) ?_ (bias_row_apply x2 p q)
  refine (Ideal.matmul_constant_zero_apply dot_S512x4096_S4096x512_S512x512_1_0_0_1_n_n none _ _ (ix2 p q)).trans ?_
  refine (Cert.PlainDot.sum_contr dot_S512x4096_S4096x512_S512x512_1_0_0_1_n_n plain _ _ p q).trans ?_
  refine Finset.sum_congr rfl fun k _ => congrArg₂ (· * ·) rfl ?_
  exact congrFun (shapeCast_self x1 shapeCasts_S4096x512_S4096x512) (ix2 k q)

/-- The same at any index of the block, by its two coordinates. -/
theorem pay_at (x0 : Vec Ideal S512x4096 .f32) (x1 : Vec Ideal S4096x512 .bf16) (x2 : Vec Ideal S1x512 .f32)
    (y : S512x512.Idx) :
    k0_pay1 (F := Ideal) x0 x1 x2 y
      = (∑ k : Fin 4096, sgn (x0 (ix2 (y 0) k)) * x1 (ix2 k (y 1))) + x2 (ix2 (0 : Fin 1) (y 1)) := by
  obtain ⟨p, q, rfl⟩ : ∃ (p q : Fin 512), y = ix2 p q := ⟨y 0, y 1, eq_ix2 y⟩
  exact pay_apply x0 x1 x2 p q

end Cert.SignDense.Body

end
-- ==== Proof.KernelHost.lean ====
/-
  What the kernel's launch finds in its weight and bias arrays.

  Before the launch the surrounding program binarizes the weight once — compare with zero, select `1` or `−1`,
  narrow the float format — and re-lays the bias vector as a single row. So the launch finds, at every index of its
  second operand, the sign of the weight there, and at `(0, q)` of its third operand the bias entry `q`.
-/
import proofs.«109413_j44117904065171_2_alg».proof.Proof.Gen.KernelIdeal.Frame
import proofs.«109413_j44117904065171_2_alg».proof.Proof.SignSpec
import Idealize.ShloMosaic.Lib.Pipeline.Value
import Idealize.ShloMosaic.Lib.ValueIdx
import Idealize.ShloMosaic.Lib.StableHlo.Run

noncomputable section

namespace Cert.SignDense.Host

open Cert.KernelIdeal Cert.KernelIdeal.Gen Cert.SignDense
open Idealize.ShloMosaic Idealize.ShloMosaic.TcCoe Idealize.SL.Sem Idealize.ShloMosaic.ValueIdx

variable (m : (ℓ : Loc nD τ sig) → Buf (Elt Ideal) ℓ)

/-- The second operand's array at the launch, as the host operations' term of the weight argument. -/
theorem weight_term (c : Dev nD) :
    (V m c main_v3 : S4096x512.Idx → EReal) =
      truncf .bf16 (select (cmpf .oge (m ((c : Thread nD τ).loc main_arg1) : FVec Ideal S4096x512 .f32)
          (broadcastInDim S4096x512 ![] bcast_S_S4096x512 (constant (F := Ideal) S_ .f32 0x00000000#32)))
        (broadcastInDim S4096x512 ![] bcast_S_S4096x512 (constant (F := Ideal) S_ .f32 0x3F800000#32))
        (broadcastInDim S4096x512 ![] bcast_S_S4096x512 (constant (F := Ideal) S_ .f32 0xBF800000#32))) bitsLt_bf16_f32 := by
  dsimp only [Gen.V]
  simp only [Gen.hostOps0, Gen.hostOps0_1, Gen.hostOps0_2, List.flatten_cons, List.flatten_nil, List.append_nil,
    List.cons_append, List.nil_append]
  after_results
  rfl

/-- A scalar constant spread over the weight's shape reads the constant's value everywhere. -/
theorem splat_apply (w : BitVec 32) (j : S4096x512.Idx) :
    broadcastInDim S4096x512 ![] bcast_S_S4096x512 (constant (F := Ideal) S_ .f32 w) j = Ideal.ofBits .f32 w :=
  broadcastInDim_apply _ bcast_S_S4096x512 (constant (F := Ideal) S_ .f32 w) j (fun a => a.elim0) (fun a => a.elim0)

/-- The second operand's array at the launch holds the sign of the weight, index by index. -/
theorem weight_apply (c : Dev nD) (j : S4096x512.Idx) :
    (V m c main_v3 : S4096x512.Idx → EReal) j = sgn ((m ((c : Thread nD τ).loc main_arg1) : S4096x512.Idx → EReal) j) := by
  rw [weight_term]
  show Scalar.select (Ideal.cmp .oge _ (broadcastInDim S4096x512 ![] bcast_S_S4096x512 (constant (F := Ideal) S_ .f32 0x00000000#32) j))
      (broadcastInDim S4096x512 ![] bcast_S_S4096x512 (constant (F := Ideal) S_ .f32 0x3F800000#32) j)
      (broadcastInDim S4096x512 ![] bcast_S_S4096x512 (constant (F := Ideal) S_ .f32 0xBF800000#32) j) = _
  rw [splat_apply, splat_apply, splat_apply]
  rfl

/-- The third operand's array at the launch, as the re-laid bias argument. -/
theorem bias_term (c : Dev nD) :
    (V m c main_v4 : S1x512.Idx → EReal) =
      shapeCast S1x512 (m ((c : Thread nD τ).loc main_arg2) : S512.Idx → EReal) shapeCasts_S512_S1x512 := by
  dsimp only [Gen.V]
  simp only [Gen.hostOps0, Gen.hostOps0_1, Gen.hostOps0_2, List.flatten_cons, List.flatten_nil, List.append_nil,
    List.cons_append, List.nil_append]
  after_results
  rfl

/-- The third operand's array at the launch holds, at `(0, q)`, the bias entry `q`. -/
theorem bias_apply (c : Dev nD) (q : Fin 512) :
    (V m c main_v4 : S1x512.Idx → EReal) (ix2 (0 : Fin 1) q)
      = (m ((c : Thread nD τ).loc main_arg2) : S512.Idx → EReal) (ix1 q) := by
  rw [bias_term]
  refine (shapeCast_addUnit_apply ![512] _ shapeCasts_S512_S1x512 (ix2 (0 : Fin 1) q)).trans ?_
  refine congrArg _ (funext fun a => ?_)
  match a with
  | ⟨0, _⟩ => rfl

end Cert.SignDense.Host

end
-- ==== Proof.KernelValue.lean ====
/-
  From the grid points' blocks to the whole result array.

  The grid has 32 points. Point `t` loads rows `512 t … 512 t + 511` of `x` (all 4096 columns), the whole
  binarized weight and the whole bias row, and writes back rows `512 t … 512 t + 511` of the result (all 512 columns).
  So entry `(p, q)` of what point `t` writes is entry `(512 t + p, q)` of the specification: the row block's entry
  `(p, k)` is `x (512 t + p, k)`, the weight block's entry `(k, q)` is the sign of `W (k, q)`, the bias block's
  entry `(0, q)` is `b q`. The 32 row blocks cover the 16384 rows — row `r` lies in the block of point `r / 512` —
  so after the run the whole array is the specification of the three arguments.
-/
import proofs.«109413_j44117904065171_2_alg».proof.Proof.Gen.KernelIdeal.Value
import proofs.«109413_j44117904065171_2_alg».proof.Proof.KernelBody
import proofs.«109413_j44117904065171_2_alg».proof.Proof.KernelHost

noncomputable section

open scoped BigOperators

namespace Cert.SignDense.Kernel

open Cert.KernelIdeal Cert.KernelIdeal.Gen Cert.KernelIdeal.Value Cert.SignDense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The four index maps over the 32 grid points: the row block of `x` and the result's block move with the point
    along the rows; the weight and the bias stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row block at point `t`, entry `y`, is `x` at row `512 t + y 0`, column `y 1`. -/
theorem rows_apply (c : Dev nD) (t : Fin cfg0.N) (y : S512x4096.Idx) (i : S16384x4096.Idx)
    (h0 : (i 0).val = t.val * 512 + (y 0).val) (h1 : (i 1).val = (y 1).val) :
    (iblk m c 0 t : Vec Ideal S512x4096 .f32) y = (m ((c : Thread nD τ).loc main_arg0) : S16384x4096.Idx → EReal) i := by
  obtain ⟨e0, e1, -⟩ := index_maps t
  unfold iblk
  rw [View.read_apply]
  show V m c main_arg0 _ = _
  rw [V_main_arg0 m c]
  refine congrArg _ (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 4096 + 1 * (y 1).val = (i 1).val; rw [e1, h1]; omega

/-- The weight block at any point is the whole binarized weight: entry `y` is the sign of `W y`. -/
theorem weight_block_apply (c : Dev nD) (t : Fin cfg0.N) (y : S4096x512.Idx) :
    (iblk m c 1 t : Vec Ideal S4096x512 .bf16) y = sgn ((m ((c : Thread nD τ).loc main_arg1) : S4096x512.Idx → EReal) y) := by
  obtain ⟨-, -, e0, e1, -⟩ := index_maps t
  unfold iblk
  rw [View.read_apply]
  show (V m c main_v3 : S4096x512.Idx → EReal) _ = _
  rw [Host.weight_apply]
  refine congrArg (fun z => sgn ((m ((c : Thread nD τ).loc main_arg1) : S4096x512.Idx → EReal) z)) (funext fun a => Fin.ext ?_)
  match a with
  | ⟨0, _⟩ => show win0_1.index t (0 : Fin 2) * 4096 + 1 * (y 0).val = (y 0).val; rw [e0]; omega
  | ⟨1, _⟩ => show win0_1.index t (1 : Fin 2) * 512 + 1 * (y 1).val = (y 1).val; rw [e1]; omega

/-- The bias block at any point is the whole bias row: entry `(0, q)` is `b q`. -/
theorem bias_block_apply (c : Dev nD) (t : Fin cfg0.N) (q : Fin 512) :
    (iblk m c 2 t : Vec Ideal S1x512 .f32) (ix2 (0 : Fin 1) q) = (m ((c : Thread nD τ).loc main_arg2) : S512.Idx → EReal) (ix1 q) := by
  obtain ⟨-, -, -, -, e0, e1, -⟩ := index_maps t
  unfold iblk
  rw [View.read_apply]
  show (V m c main_v4 : S1x512.Idx → EReal) _ = _
  refine Eq.trans (congrArg (V m c main_v4 : S1x512.Idx → EReal) (funext fun a => Fin.ext ?_)) (Host.bias_apply m c q)
  match a with
  | ⟨0, _⟩ => show win0_2.index t (0 : Fin 2) * 1 + 1 * 0 = 0; rw [e0]
  | ⟨1, _⟩ => show win0_2.index t (1 : Fin 2) * 512 + 1 * q.val = q.val; rw [e1]; omega

/-- WHAT POINT `t` WRITES BACK is block `t` of the specification of the three arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S512x4096) zero_offsets, View.ld_unit_zero (S := S4096x512) zero_offsets,
    View.ld_unit_zero (S := S1x512) zero_offsets]
  obtain ⟨-, -, -, -, -, -, e0, e1⟩ := index_maps t
  funext j
  show k0_pay1 (F := Ideal) (iblk m c 0 t) (iblk m c 1 t) (iblk m c 2 t) j
    = G (m ((c : Thread nD τ).loc main_arg0)) (m ((c : Thread nD τ).loc main_arg1)) (m ((c : Thread nD τ).loc main_arg2))
        (((cfg0.win 3).blk t).view.emb j)
  refine (Body.pay_at (iblk m c 0 t) (iblk m c 1 t) (iblk m c 2 t) j).trans ?_
  have h0 : ((((cfg0.win 3).blk t).view.emb j) 0).val = t.val * 512 + (j 0).val := by
    show win0_3.index t (0 : Fin 2) * 512 + 1 * (j 0).val = _; rw [e0]; omega
  have h1 : ((((cfg0.win 3).blk t).view.emb j) 1).val = (j 1).val := by
    show win0_3.index t (1 : Fin 2) * 512 + 1 * (j 1).val = _; rw [e1]; omega
  unfold G
  refine congrArg₂ (· + ·) (Finset.sum_congr rfl fun k _ => congrArg₂ (· * ·) (congrArg sgn ?_) ?_) ?_
  · exact rows_apply m c t (ix2 (j 0) k) (ix2 ((((cfg0.win 3).blk t).view.emb j) 0) k) h0 rfl
  · refine (weight_block_apply m c t (ix2 k (j 1))).trans
      (congrArg (fun z => sgn ((m ((c : Thread nD τ).loc main_arg1) : S4096x512.Idx → EReal) z)) (funext fun a => Fin.ext ?_))
    match a with
    | ⟨0, _⟩ => rfl
    | ⟨1, _⟩ => exact h1.symm
  · refine (bias_block_apply m c t (j 1)).trans
      (congrArg (m ((c : Thread nD τ).loc main_arg2) : S512.Idx → EReal) (funext fun a => Fin.ext ?_))
    match a with
    | ⟨0, _⟩ => exact h1.symm

/-- An index of the result is in point `t`'s block iff each coordinate is in the block's range on its axis. -/
theorem mem_blk (t : Fin cfg0.N) (i : S16384x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v5).slice (win0_3.rect t)).set ↔ _
  rw [View.set_slice_whole, Rect.mem_set_unit]
  exact Iff.rfl

/-- Every index of the result lies in the block of the point its row falls to, `row / 512`, and every point writes back. -/
theorem cover (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 32 := N_0
  have ht : (i 0).val / 512 < cfg0.N := by rw [hN]; omega
  obtain ⟨-, -, -, -, -, -, e0, e1⟩ := index_maps ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, ht⟩ (1 : Fin 2) * 512 ≤ (i 1).val
      ∧ (i 1).val < win0_3.index ⟨(i 0).val / 512, ht⟩ (1 : Fin 2) * 512 + 512
    rw [e1]
    omega

/-- THE ARRAY after the run is the specification of the three arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v5)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.SignDense.Kernel

end
-- ==== Proof.lean ====
/-
  A dense layer on signs: the kernel against its reference, on the extended reals.

  Both programs take an input `x` (16384 × 4096), a weight `W` (4096 × 512) and a bias `b` (512), replace every
  entry of `x` and of `W` by its sign `s(v)` (`+1` when `v ≥ 0`, `−1` otherwise), and return

      out (i, j) = ∑ k < 4096, s (x (i, k)) · s (W (k, j)) + b j.

  The kernel binarizes the weight once before its launch and, at each of 32 grid points, takes the signs of a block
  of 512 rows of `x`, multiplies by the binarized weight into a zero accumulator and adds the bias row; the 32 row
  blocks tile the result. The reference writes each sign as `c + (s(v) − c)` with `c` the entry clipped to [−1, 1],
  multiplies the two full matrices and adds the bias spread over the rows. The clip is always a real number, so
  `c + (s − c) = s` on the extended reals for every entry, finite or not: the two results are the same function of
  the arguments, and the precondition is never opened. A change of float format is the identity on the extended
  reals, and both a product into a zero accumulator and the host's product are the plain sum over `k`.

  The modules: `SignSpec` (the sign, the law, the specification), `RefSide` (the reference is the specification),
  `KernelBody` (one grid point's arithmetic entry by entry), `KernelHost` (what the launch finds in the weight and
  bias arrays), `KernelValue` (the blocks tile the result: the kernel is the specification). No operation of the
  kernel had to be rewritten to read it on the extended reals, so the idealized kernel is the kernel's own text.
-/
import proofs.«109413_j44117904065171_2_alg».proof.Defs
import proofs.«109413_j44117904065171_2_alg».proof.Proof.Gen.Kernel
import proofs.«109413_j44117904065171_2_alg».proof.Proof.Gen.Kernel.Skeleton
import proofs.«109413_j44117904065171_2_alg».proof.Proof.Gen.Kernel.Launch
import proofs.«109413_j44117904065171_2_alg».proof.Proof.Gen.Kernel.Points
import proofs.«109413_j44117904065171_2_alg».proof.Proof.Gen.Kernel.Frame
import proofs.«109413_j44117904065171_2_alg».proof.Proof.Gen.KernelIdeal
import proofs.«109413_j44117904065171_2_alg».proof.Proof.Gen.KernelIdeal.Skeleton
import proofs.«109413_j44117904065171_2_alg».proof.Proof.Gen.KernelIdeal.Launch
import proofs.«109413_j44117904065171_2_alg».proof.Proof.Gen.KernelIdeal.Points
import proofs.«109413_j44117904065171_2_alg».proof.Proof.Gen.KernelIdeal.Frame
import proofs.«109413_j44117904065171_2_alg».proof.Proof.Gen.ReferenceIdeal
import proofs.«109413_j44117904065171_2_alg».proof.Proof.Gen.Pre_finite_inputs
import proofs.«109413_j44117904065171_2_alg».proof.Proof.Gen.KernelIdeal.Value
import proofs.«109413_j44117904065171_2_alg».proof.Proof.Gen.ReferenceIdeal.Run
import proofs.«109413_j44117904065171_2_alg».proof.Proof.Gen.ReferenceIdeal.Read
import proofs.«109413_j44117904065171_2_alg».proof.Proof.RefSide
import proofs.«109413_j44117904065171_2_alg».proof.Proof.KernelValue
import Idealize.ShloMosaic.Adequacy
import Idealize.ShloMosaic.Init

noncomputable section

namespace Cert.Proof

open Idealize.ShloMosaic Idealize.SL.Sem Cert.Kernel

/-- The kernel, read on machine words, runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories agreeing on `x`, `W` and `b`, both programs end with the specification of those three arrays in
    their result: the kernel by its blocks, the reference by its operations read one at a time. -/
theorem algebraic : Cert.algebraic_KernelIdeal_ReferenceIdeal := by
  intro m ρ m' ρ' _ hagree
  refine ⟨_, Cert.SignDense.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.SignDense.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
